-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S5000x128 : Shape := ⟨2, ![5000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S5000 : Shape := ⟨1, ![5000]⟩
abbrev S5000x1 : Shape := ⟨2, ![5000, 1]⟩

abbrev nBuf : Space → Nat
  | .hbm => 120
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x32, .f32⟩
  | .hbm, ⟨66, _⟩ => ⟨S100000, .i32⟩
  | .hbm, ⟨67, _⟩ => ⟨S1700000, .i32⟩
  | .hbm, ⟨68, _⟩ => ⟨S1700000, .i32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x32, .f32⟩
  | .hbm, ⟨111, _⟩ => ⟨S1700000x1, .f32⟩
  | .hbm, ⟨112, _⟩ => ⟨S1700000x32, .f32⟩
  | .hbm, ⟨113, _⟩ => ⟨S1700000x32, .f32⟩
  | .hbm, ⟨114, _⟩ => ⟨S_, .f32⟩
  | .hbm, ⟨115, _⟩ => ⟨S100000x32, .f32⟩
  | .hbm, ⟨116, _⟩ => ⟨S1700000x1, .i32⟩
  | .hbm, ⟨117, _⟩ => ⟨S100000x32, .f32⟩
  | .hbm, ⟨118, _⟩ => ⟨S1x32, .f32⟩
  | .hbm, ⟨119, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x32_S5000x32_1_0_0_1_n_n_wf : DotDims.WF S5000x128 S128x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x32, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x32, .f32⟩
  | 115 => ⟨S1700000x1, .f32⟩
  | 116 => ⟨S1700000x32, .f32⟩
  | 117 => ⟨S1700000x32, .f32⟩
  | 118 => ⟨S_, .f32⟩
  | 119 => ⟨S100000x32, .f32⟩
  | 120 => ⟨S1700000x1, .i32⟩
  | 121 => ⟨S100000x32, .f32⟩
  | 122 => ⟨S1x32, .f32⟩
  | 123 => ⟨S100000x32, .f32⟩
  | 124 => ⟨S100000x32, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x32, .f32⟩
  | 4 => ⟨S100000x32, .f32⟩
  | 5 => ⟨S100000x32, .f32⟩
  | 6 => ⟨S_, .f32⟩
  | 7 => ⟨S100000, .f32⟩
  | 8 => ⟨S100000x1, .f32⟩
  | 9 => ⟨S100000x1, .f32⟩
  | 10 => ⟨S100000x32, .f32⟩
  | 11 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KRun.lean ====
/-
  The idealized kernel's whole run with its result buffer named.  @main is eleven segments: four stretches of host
  operations and four kernel launches.  The memory at each boundary is a fold from the launch memory (the generated
  frame's boundary contents, the last of them after the fourth launch), and the run over the segments leaves every
  unscoped buffer at that last boundary's contents: the result buffer at its entry there, each argument as launched.
-/
import proofs.«170771_j86105504350421_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; the result buffer ends at
    the last boundary's contents and every argument array as launched. -/
theorem run_named : θ_run defs (onTc (τ := τ) (main (F := F))) ⟨m, fun _ => 0, ρ⟩ (fun r => ∀ c : Dev nD,
      r.2.mem ((c.tc : Thread nD τ).loc main_v87) = W11 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v87 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Whole

end
-- ==== Proof.Spec.lean ====
/-
  The two-layer graph convolution as whole-array functions, at any float instance.

  One layer sends node features h (one row per node) to  b + Σ over edges (s → d) of  w(s, d) · h[s],  summed into
  row d, where the edge list is the given list with one self loop per node appended, and the weight of an edge is
  deg(s)^(-1/2) · deg(d)^(-1/2) with deg the number of edges arriving at a node (the inverse square root replaced by 0
  where the degree is not positive).  The first layer's features are x · W1 and its result goes through max(·, 0);
  the second layer's features are that times W2, and its result goes through the row-wise log-softmax
  z ↦ (z − max z) − log Σ exp (z − max z).

  Everything that depends on the edge list only (the index vectors, the degrees, the weights) and the gather /
  scatter-add of a layer are kept as named functions that no proof opens: both programs apply them to equal arguments.
-/
import proofs.«170771_j86105504350421_1_alg».proof.Proof.Gen.ReferenceIdeal

noncomputable section

namespace Cert.Spec

open Idealize.ShloMosaic Cert.ReferenceIdeal Cert.ReferenceIdeal.Gen

variable {F : FTy → Type} [FloatOps F]

/-- An edge-endpoint list with the self loops appended: the given endpoints, then every node once. -/
def withLoops (v : (⟨S1600000, .i32⟩ : BufTy).Contents (Elt F)) : (⟨S1700000, .i32⟩ : BufTy).Contents (Elt F) :=
  concatenate S1700000 0 [⟨S1600000, v⟩, ⟨S100000, iotaInDim S100000 32 0⟩] concatenates_S1600000_S100000_S1700000_d0

/-- A negative node number counts from the end. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- A list of node numbers as the one-column index array a gather or a scatter takes. -/
def asColumn (v : (⟨S1700000, .i32⟩ : BufTy).Contents (Elt F)) : (⟨S1700000x1, .i32⟩ : BufTy).Contents (Elt F) :=
  broadcastInDim S1700000x1 ![0] bcast_S1700000_S1700000x1_0 v

/-- The number of edges arriving at each node. -/
def degree (d : (⟨S1700000, .i32⟩ : BufTy).Contents (Elt F)) : (⟨S100000, .f32⟩ : BufTy).Contents (Elt F) :=
  Host.scatterAdd (F := F) scatter_S100000_S1700000x1_S1700000_n_0_0_1
    (broadcastInDim S100000 ![] bcast_S_S100000 (constant (F := F) S_ .f32 0x00000000#32))
    (asColumn (F := F) d)
    (broadcastInDim S1700000 ![] bcast_S_S1700000 (constant (F := F) S_ .f32 0x3F800000#32))

/-- deg^(-1/2) where the degree is positive, 0 elsewhere. -/
def invSqrtDeg (d : (⟨S1700000, .i32⟩ : BufTy).Contents (Elt F)) : (⟨S100000, .f32⟩ : BufTy).Contents (Elt F) :=
  select (cmpf .ogt (degree (F := F) d) (broadcastInDim S100000 ![] bcast_S_S100000 (constant (F := F) S_ .f32 0x00000000#32)))
    (Host.rsqrt (F := F) (degree (F := F) d))
    (broadcastInDim S100000 ![] bcast_S_S100000 (id (constant (F := F) S_ .f32 0x00000000#32)))

/-- The weight of each edge: deg(source)^(-1/2) · deg(destination)^(-1/2). -/
def edgeWeight (s d : (⟨S1700000, .i32⟩ : BufTy).Contents (Elt F)) : (⟨S1700000, .f32⟩ : BufTy).Contents (Elt F) :=
  mulf (Host.gather gather_S100000_S1700000x1_S1700000_n_0_n_n_0_1_1 (invSqrtDeg (F := F) d) (asColumn (F := F) (wrapIdx (F := F) s)))
    (Host.gather gather_S100000_S1700000x1_S1700000_n_0_n_n_0_1_1 (invSqrtDeg (F := F) d) (asColumn (F := F) (wrapIdx (F := F) d)))

/-- One layer's aggregation of 128-lane features: row d of the result is Σ over edges (s → d) of weight · h[s]. -/
def aggregate128 (h : (⟨S100000x128, .f32⟩ : BufTy).Contents (Elt F)) (src dst : (⟨S1600000, .i32⟩ : BufTy).Contents (Elt F)) :
    (⟨S100000x128, .f32⟩ : BufTy).Contents (Elt F) :=
  Host.scatterAdd (F := F) scatter_S100000x128_S1700000x1_S1700000x128_1_0_0_1
    (broadcastInDim S100000x128 ![] bcast_S_S100000x128 (constant (F := F) S_ .f32 0x00000000#32))
    (asColumn (F := F) (withLoops (F := F) dst))
    (mulf (Host.gather gather_S100000x128_S1700000x1_S1700000x128_1_0_n_n_0_1_1128 h (asColumn (F := F) (wrapIdx (F := F) (withLoops (F := F) src))))
      (broadcastInDim S1700000x128 ![0, 1] bcast_S1700000x1_S1700000x128_0_1
        (broadcastInDim S1700000x1 ![0] bcast_S1700000_S1700000x1_0 (edgeWeight (F := F) (withLoops (F := F) src) (withLoops (F := F) dst)))))

/-- The same for 32-lane features. -/
def aggregate32 (h : (⟨S100000x32, .f32⟩ : BufTy).Contents (Elt F)) (src dst : (⟨S1600000, .i32⟩ : BufTy).Contents (Elt F)) :
    (⟨S100000x32, .f32⟩ : BufTy).Contents (Elt F) :=
  Host.scatterAdd (F := F) scatter_S100000x32_S1700000x1_S1700000x32_1_0_0_1
    (broadcastInDim S100000x32 ![] bcast_S_S100000x32 (constant (F := F) S_ .f32 0x00000000#32))
    (asColumn (F := F) (withLoops (F := F) dst))
    (mulf (Host.gather gather_S100000x32_S1700000x1_S1700000x32_1_0_n_n_0_1_132 h (asColumn (F := F) (wrapIdx (F := F) (withLoops (F := F) src))))
      (broadcastInDim S1700000x32 ![0, 1] bcast_S1700000x1_S1700000x32_0_1
        (broadcastInDim S1700000x1 ![0] bcast_S1700000_S1700000x1_0 (edgeWeight (F := F) (withLoops (F := F) src) (withLoops (F := F) dst)))))

/-- The source and the destination endpoints: rows 0 and 1 of the edge array, each as a vector. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The first layer's dense part, x · W1, and the second's, h · W2. -/
def dense1 (x : (⟨S100000x128, .f32⟩ : BufTy).Contents (Elt F)) (w : (⟨S128x128, .f32⟩ : BufTy).Contents (Elt F)) :
    (⟨S100000x128, .f32⟩ : BufTy).Contents (Elt F) :=
  Host.dotGeneral (F := F) dot_S100000x128_S128x128_S100000x128_1_0_0_1_n_n none x w
def dense2 (x : (⟨S100000x128, .f32⟩ : BufTy).Contents (Elt F)) (w : (⟨S128x32, .f32⟩ : BufTy).Contents (Elt F)) :
    (⟨S100000x32, .f32⟩ : BufTy).Contents (Elt F) :=
  Host.dotGeneral (F := F) dot_S100000x128_S128x32_S100000x32_1_0_0_1_n_n none x w

/-- Add a bias row to every row, then max(·, 0). -/
def biasRelu (a : (⟨S100000x128, .f32⟩ : BufTy).Contents (Elt F)) (row : (⟨S1x128, .f32⟩ : BufTy).Contents (Elt F)) :
    (⟨S100000x128, .f32⟩ : BufTy).Contents (Elt F) :=
  maximumf (addf a (broadcastInDim S100000x128 ![0, 1] bcast_S1x128_S100000x128_0_1 row))
    (broadcastInDim S100000x128 ![] bcast_S_S100000x128 (constant (F := F) S_ .f32 0x00000000#32))

/-- The row maximum, kept as a vector: a max-reduction from −∞, then max with −∞ once more. -/
def rowMax (z : (⟨S100000x32, .f32⟩ : BufTy).Contents (Elt F)) : (⟨S100000, .f32⟩ : BufTy).Contents (Elt F) :=
  maximumf (broadcastInDim S100000 ![] bcast_S_S100000 (constant (F := F) S_ .f32 0xFF800000#32))
    (Host.reduce (FloatOps.maximumf (F := F)) z (constant (F := F) S_ .f32 0xFF800000#32) reducesTo_S100000x32_S100000_d1 h_S_)

/-- A per-row value spread over the 32 lanes of its row. -/
def overLanes (v : (⟨S100000x1, .f32⟩ : BufTy).Contents (Elt F)) : (⟨S100000x32, .f32⟩ : BufTy).Contents (Elt F) :=
  broadcastInDim S100000x32 ![0, 1] bcast_S100000x1_S100000x32_0_1 v
def asRows (v : (⟨S100000, .f32⟩ : BufTy).Contents (Elt F)) : (⟨S100000x1, .f32⟩ : BufTy).Contents (Elt F) :=
  broadcastInDim S100000x1 ![0] bcast_S100000_S100000x1_0 v

/-- z − max z, row by row. -/
def shifted (z : (⟨S100000x32, .f32⟩ : BufTy).Contents (Elt F)) : (⟨S100000x32, .f32⟩ : BufTy).Contents (Elt F) :=
  subf z (overLanes (F := F) (asRows (F := F) (rowMax (F := F) z)))

/-- The row-wise log-softmax: (z − max z) − log Σ exp (z − max z). -/
def logSoftmax (z : (⟨S100000x32, .f32⟩ : BufTy).Contents (Elt F)) : (⟨S100000x32, .f32⟩ : BufTy).Contents (Elt F) :=
  subf (shifted (F := F) z)
    (overLanes (F := F) (Host.log (F := F) (asRows (F := F)
      (Host.reduceAdd (F := F) (Host.exp (F := F) (shifted (F := F) z)) (constant (F := F) S_ .f32 0x00000000#32) reducesTo_S100000x32_S100000_d1 h_S_))))

/-- Add a bias row to every row, then the log-softmax. -/
def biasLogSoftmax (a : (⟨S100000x32, .f32⟩ : BufTy).Contents (Elt F)) (row : (⟨S1x32, .f32⟩ : BufTy).Contents (Elt F)) :
    (⟨S100000x32, .f32⟩ : BufTy).Contents (Elt F) :=
  logSoftmax (F := F) (addf a (broadcastInDim S100000x32 ![0, 1] bcast_S1x32_S100000x32_0_1 row))

/-- The whole network: the result array as one function of the six argument arrays, the bias vectors entering as 1×n rows. -/
def network (x : (⟨S100000x128, .f32⟩ : BufTy).Contents (Elt F)) (e : (⟨S2x1600000, .i32⟩ : BufTy).Contents (Elt F))
    (w1 : (⟨S128x128, .f32⟩ : BufTy).Contents (Elt F)) (b1 : (⟨S1x128, .f32⟩ : BufTy).Contents (Elt F))
    (w2 : (⟨S128x32, .f32⟩ : BufTy).Contents (Elt F)) (b2 : (⟨S1x32, .f32⟩ : BufTy).Contents (Elt F)) :
    (⟨S100000x32, .f32⟩ : BufTy).Contents (Elt F) :=
  biasLogSoftmax (F := F)
    (aggregate32 (F := F)
      (dense2 (F := F) (biasRelu (F := F) (aggregate128 (F := F) (dense1 (F := F) x w1) (srcOf (F := F) e) (dstOf (F := F) e)) b1) w2)
      (srcOf (F := F) e) (dstOf (F := F) e))
    b2

end Cert.Spec

end
-- ==== Proof.KHost.lean ====
/-
  The idealized kernel's host operations between its four launches, read back.  Before the first launch the edge
  array is cut into its two rows (the source and the destination endpoints).  Between the first and the second launch
  the first layer's dense features are aggregated over the edges and the first bias vector is reshaped to a row;
  between the third and the fourth the same happens to the second layer's features and the second bias.  A buffer that
  a stretch does not write goes through it unchanged, and a launch changes only its output array.
-/
import proofs.«170771_j86105504350421_1_alg».proof.Proof.Gen.KernelIdeal.Frame
import proofs.«170771_j86105504350421_1_alg».proof.Proof.Spec
import Idealize.ShloMosaic.Lib.StableHlo.Run

set_option maxRecDepth 16384

noncomputable section

namespace Cert.KernelIdeal.HostParts

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the first launch -/

/-- The source endpoints: row 0 of the edge array as a vector. -/
theorem first_src (c : Dev nD) : W1 m ρ c (Proc.devRef .tc main_v1) = Cert.Spec.srcOf (F := F) (m ((c : Thread nD τ).loc main_arg1)) := by
  show StableHlo.after hostOps0 (W0 m ρ c) (Proc.devRef .tc main_v1) = _
  after_results_simp <;> rfl
/-- The destination endpoints: row 1. -/
theorem first_dst (c : Dev nD) : W1 m ρ c (Proc.devRef .tc main_v3) = Cert.Spec.dstOf (F := F) (m ((c : Thread nD τ).loc main_arg1)) := by
  show StableHlo.after hostOps0 (W0 m ρ c) (Proc.devRef .tc main_v3) = _
  after_results_simp <;> rfl
theorem first_main_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem first_main_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem first_main_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem first_main_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem first_main_arg5 (c : Dev nD) : W1 m ρ c (Proc.devRef .tc main_arg5) = m ((c : Thread nD τ).loc main_arg5) := by
  show StableHlo.after hostOps0 (W0 m ρ c) (Proc.devRef .tc main_arg5) = _
  after_results_simp <;> rfl

/-! ## Between the first and the second launch -/

set_option maxHeartbeats 2000000 in
/-- The first layer's aggregation of what the first launch left. -/
theorem mid_agg (c : Dev nD) : W5 m ρ c (Proc.devRef .tc main_v43)
    = Cert.Spec.aggregate128 (F := F) (W2 m ρ c (Proc.devRef .tc main_v4)) (W2 m ρ c (Proc.devRef .tc main_v1)) (W2 m ρ c (Proc.devRef .tc main_v3)) := by
  show StableHlo.after hostOps1_2 (StableHlo.after hostOps1_1 (StableHlo.after hostOps1 (W2 m ρ c))) (Proc.devRef .tc main_v43) = _
  after_results_simp
  rfl
/-- The first bias vector as a 1×128 row. -/
theorem mid_bias (c : Dev nD) : W5 m ρ c (Proc.devRef .tc main_v44)
    = shapeCast S1x128 (W2 m ρ c (Proc.devRef .tc main_arg3)) shapeCasts_S128_S1x128 := by
  show StableHlo.after hostOps1_2 (StableHlo.after hostOps1_1 (StableHlo.after hostOps1 (W2 m ρ c))) (Proc.devRef .tc main_v44) = _
  after_results_simp <;> rfl
theorem mid_main_v1 (c : Dev nD) : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  after_results_simp
theorem mid_main_v3 (c : Dev nD) : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  after_results_simp
theorem mid_main_arg4 (c : Dev nD) : W5 m ρ c (Proc.devRef .tc main_arg4) = W2 m ρ c (Proc.devRef .tc main_arg4) := by
  show StableHlo.after hostOps1_2 (StableHlo.after hostOps1_1 (StableHlo.after hostOps1 (W2 m ρ c))) (Proc.devRef .tc main_arg4) = _
  after_results_simp
theorem mid_main_arg5 (c : Dev nD) : W5 m ρ c (Proc.devRef .tc main_arg5) = W2 m ρ c (Proc.devRef .tc main_arg5) := by
  show StableHlo.after hostOps1_2 (StableHlo.after hostOps1_1 (StableHlo.after hostOps1 (W2 m ρ c))) (Proc.devRef .tc main_arg5) = _
  after_results_simp

/-! ## Between the third and the fourth launch -/

set_option maxHeartbeats 2000000 in
/-- The second layer's aggregation of what the third launch left. -/
theorem last_agg (c : Dev nD) : W10 m ρ c (Proc.devRef .tc main_v85)
    = Cert.Spec.aggregate32 (F := F) (W7 m ρ c (Proc.devRef .tc main_v46)) (W7 m ρ c (Proc.devRef .tc main_v1)) (W7 m ρ c (Proc.devRef .tc main_v3)) := by
  show StableHlo.after hostOps3_2 (StableHlo.after hostOps3_1 (StableHlo.after hostOps3 (W7 m ρ c))) (Proc.devRef .tc main_v85) = _
  after_results_simp
  rfl
/-- The second bias vector as a 1×32 row. -/
theorem last_bias (c : Dev nD) : W10 m ρ c (Proc.devRef .tc main_v86)
    = shapeCast S1x32 (W7 m ρ c (Proc.devRef .tc main_arg5)) shapeCasts_S32_S1x32 := by
  show StableHlo.after hostOps3_2 (StableHlo.after hostOps3_1 (StableHlo.after hostOps3 (W7 m ρ c))) (Proc.devRef .tc main_v86) = _
  after_results_simp <;> rfl

/-! ## Through the launches: a launch rewrites its output array only -/

theorem l0_v1 (c : Dev nD) : W2 m ρ c (Proc.devRef .tc main_v1) = W1 m ρ c (Proc.devRef .tc main_v1) := W2_of_ne m ρ c main_v1 (by decide)
theorem l0_v3 (c : Dev nD) : W2 m ρ c (Proc.devRef .tc main_v3) = W1 m ρ c (Proc.devRef .tc main_v3) := W2_of_ne m ρ c main_v3 (by decide)
theorem l0_arg3 (c : Dev nD) : W2 m ρ c (Proc.devRef .tc main_arg3) = W1 m ρ c (Proc.devRef .tc main_arg3) := W2_of_ne m ρ c main_arg3 (by decide)
theorem l0_arg4 (c : Dev nD) : W2 m ρ c (Proc.devRef .tc main_arg4) = W1 m ρ c (Proc.devRef .tc main_arg4) := W2_of_ne m ρ c main_arg4 (by decide)
theorem l0_arg5 (c : Dev nD) : W2 m ρ c (Proc.devRef .tc main_arg5) = W1 m ρ c (Proc.devRef .tc main_arg5) := W2_of_ne m ρ c main_arg5 (by decide)
theorem l1_v1 (c : Dev nD) : W6 m ρ c (Proc.devRef .tc main_v1) = W5 m ρ c (Proc.devRef .tc main_v1) := W6_of_ne m ρ c main_v1 (by decide)
theorem l1_v3 (c : Dev nD) : W6 m ρ c (Proc.devRef .tc main_v3) = W5 m ρ c (Proc.devRef .tc main_v3) := W6_of_ne m ρ c main_v3 (by decide)
theorem l1_arg4 (c : Dev nD) : W6 m ρ c (Proc.devRef .tc main_arg4) = W5 m ρ c (Proc.devRef .tc main_arg4) := W6_of_ne m ρ c main_arg4 (by decide)
theorem l1_arg5 (c : Dev nD) : W6 m ρ c (Proc.devRef .tc main_arg5) = W5 m ρ c (Proc.devRef .tc main_arg5) := W6_of_ne m ρ c main_arg5 (by decide)
theorem l2_v1 (c : Dev nD) : W7 m ρ c (Proc.devRef .tc main_v1) = W6 m ρ c (Proc.devRef .tc main_v1) := W7_of_ne m ρ c main_v1 (by decide)
theorem l2_v3 (c : Dev nD) : W7 m ρ c (Proc.devRef .tc main_v3) = W6 m ρ c (Proc.devRef .tc main_v3) := W7_of_ne m ρ c main_v3 (by decide)
theorem l2_arg5 (c : Dev nD) : W7 m ρ c (Proc.devRef .tc main_arg5) = W6 m ρ c (Proc.devRef .tc main_arg5) := W7_of_ne m ρ c main_arg5 (by decide)

/-! ## The leaves, all the way back to the launch memory -/

theorem src_at_mid (c : Dev nD) : W2 m ρ c (Proc.devRef .tc main_v1) = Cert.Spec.srcOf (F := F) (m ((c : Thread nD τ).loc main_arg1)) :=
  (l0_v1 m ρ c).trans (first_src m ρ c)
theorem dst_at_mid (c : Dev nD) : W2 m ρ c (Proc.devRef .tc main_v3) = Cert.Spec.dstOf (F := F) (m ((c : Thread nD τ).loc main_arg1)) :=
  (l0_v3 m ρ c).trans (first_dst m ρ c)
theorem src_at_last (c : Dev nD) : W7 m ρ c (Proc.devRef .tc main_v1) = Cert.Spec.srcOf (F := F) (m ((c : Thread nD τ).loc main_arg1)) :=
  (l2_v1 m ρ c).trans ((l1_v1 m ρ c).trans ((mid_main_v1 m ρ c).trans (src_at_mid m ρ c)))
theorem dst_at_last (c : Dev nD) : W7 m ρ c (Proc.devRef .tc main_v3) = Cert.Spec.dstOf (F := F) (m ((c : Thread nD τ).loc main_arg1)) :=
  (l2_v3 m ρ c).trans ((l1_v3 m ρ c).trans ((mid_main_v3 m ρ c).trans (dst_at_mid m ρ c)))
theorem arg3_at_mid (c : Dev nD) : W2 m ρ c (Proc.devRef .tc main_arg3) = m ((c : Thread nD τ).loc main_arg3) :=
  (l0_arg3 m ρ c).trans (first_main_arg3 m ρ c)
theorem arg4_at_third (c : Dev nD) : W6 m ρ c (Proc.devRef .tc main_arg4) = m ((c : Thread nD τ).loc main_arg4) :=
  (l1_arg4 m ρ c).trans ((mid_main_arg4 m ρ c).trans ((l0_arg4 m ρ c).trans (first_main_arg4 m ρ c)))
theorem arg5_at_last (c : Dev nD) : W7 m ρ c (Proc.devRef .tc main_arg5) = m ((c : Thread nD τ).loc main_arg5) :=
  (l2_arg5 m ρ c).trans ((l1_arg5 m ρ c).trans ((mid_main_arg5 m ρ c).trans ((l0_arg5 m ρ c).trans (first_main_arg5 m ρ c))))

end Cert.KernelIdeal.HostParts

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.KRegion0.lean ====
/-
  The first launch (the first layer's matrix product) as one whole-array function, at the exact reals.

  The launch walks 20 grid points; point t stages rows 5000·t … 5000·t + 4999 of x (all 128 columns) and the whole
  128×128 weight matrix, and writes back the product of the two blocks on the same rows.  With exact arithmetic a change
  of float format is the identity and the product into a zero accumulator is the plain sum over the inner index, so
  entry (r, q) of the output is Σ over k of x(r, k) · W(k, q): the entry of the whole product x · W.  The 20 blocks
  tile the 100000 rows, so the output array after the launch is the whole product.
-/
import proofs.«170771_j86105504350421_1_alg».proof.Proof.Gen.KernelIdeal.Frame
import proofs.«170771_j86105504350421_1_alg».proof.Proof.Spec
import proofs.«170771_j86105504350421_1_alg».proof.Proof.LibPlainDot
import Idealize.ShloMosaic.Lib.Pipeline.Value
import Idealize.ShloMosaic.Lib.ValueIdx

set_option maxRecDepth 16384

noncomputable section

namespace Cert.KernelIdeal.Dense1Value

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body at an entry (p, q) of the block: the sum over k of a(p, k) · w(k, q). -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Cert.PlainDot.matmul_zero_apply dot_S5000x128_S128x128_S5000x128_1_0_0_1_n_n rfl none _ _ p q).trans ?_
  refine Finset.sum_congr rfl fun k _ => ?_
  rfl

/-- The whole-array product at an entry (P, q): the same sum over the whole arrays. -/
theorem spec_apply (A : (⟨S100000x128, .f32⟩ : BufTy).Contents (Elt Ideal)) (B : (⟨S128x128, .f32⟩ : BufTy).Contents (Elt Ideal))
    (P : Fin 100000) (q : Fin 128) :
    Cert.Spec.dense1 (F := Ideal) A B (ix2 P q) = ∑ k : Fin 128, A (ix2 P k) * B (ix2 k q) := by
  unfold Cert.Spec.dense1
  exact Cert.PlainDot.dotGeneral_apply Cert.ReferenceIdeal.dot_S100000x128_S128x128_S100000x128_1_0_0_1_n_n rfl none _ A B P q

/-- The printed index maps over the 20 points: the left operand's and the output's blocks are block t of the rows, the
    right operand's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array product of the arrays the launch found. -/
theorem flushed_eq (c : Dev nD) (t : Fin cfg0.N) :
    (dat0 V c).flushed 2 t
      = ((cfg0.win 2).blk t).view.read (Elt Ideal) (Cert.Spec.dense1 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := idx_facts t
  have ht : t.val < 20 := t.isLt
  funext j
  obtain ⟨p, q, rfl⟩ : ∃ (p : Fin 5000) (q : Fin 128), j = ix2 p q := ⟨j 0, j 1, eq_ix2 j⟩
  have hp : p.val < 5000 := p.isLt
  have hrow : t.val * 5000 + p.val < 100000 := by omega
  show k0_pay1 (iblk0 V c 0 t) (iblk0 V c 1 t) (ix2 p q)
    = Cert.Spec.dense1 (F := Ideal) (V c main_arg0) (V c main_arg2) (((cfg0.win 2).blk t).view.emb (ix2 p q))
  have hemb : ((cfg0.win 2).blk t).view.emb (ix2 p q) = ix2 (⟨t.val * 5000 + p.val, hrow⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  have h0 : ∀ k : Fin 128, iblk0 V c 0 t (ix2 p k) = V c main_arg0 (ix2 (⟨t.val * 5000 + p.val, hrow⟩ : Fin 100000) k) := fun k => by
    show V c main_arg0 (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, iblk0 V c 1 t (ix2 k q) = V c main_arg2 (ix2 k q) := fun k => by
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [hemb, spec_apply]
  refine (pay_apply _ _ p q).trans ?_
  refine Finset.sum_congr rfl fun k _ => ?_
  rw [h0 k, h1 k]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- The 20 blocks tile the array: row r lies in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < 20 := by omega
  obtain ⟨e0, e1, e2, e3, e4, e5⟩ := idx_facts (⟨(i 0).val / 5000, hlt⟩ : Fin cfg0.N)
  have e4' : win0_2.index (⟨(i 0).val / 5000, hlt⟩ : Fin cfg0.N) (0 : Fin 2) = (i 0).val / 5000 := e4
  refine ⟨⟨(i 0).val / 5000, hlt⟩, flush0_2 _, ?_⟩
  rw [mem_blk]
  intro a
  match a with
  | ⟨0, _⟩ =>
    show win0_2.index _ (0 : Fin 2) * 5000 ≤ (i 0).val ∧ (i 0).val < win0_2.index _ (0 : Fin 2) * 5000 + 5000
    omega
  | ⟨1, _⟩ =>
    show win0_2.index _ (1 : Fin 2) * 128 ≤ (i 1).val ∧ (i 1).val < win0_2.index _ (1 : Fin 2) * 128 + 128
    omega

/-- The output array after the launch: the matrix product of the two arrays the launch found. -/
theorem value (c : Dev nD) :
    (dat0 V c).arrAt 2 cfg0.N = Cert.Spec.dense1 (F := Ideal) (V c main_arg0) (V c main_arg2) :=
  (dat0 V c).arrAt_eq_of_cover 2 _ (fun t _ => flushed_eq V c t) cover

end Cert.KernelIdeal.Dense1Value

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.KRegion1.lean ====
/-
  The second launch (bias and rectifier) as one whole-array function, at the exact reals.

  The launch walks 20 grid points; point t stages rows 5000·t … 5000·t + 4999 of the aggregated features (all 128
  lanes) and the whole 1×128 bias row, and writes back max(a + b, 0) on the same rows.  An entry (r, l) of the output
  therefore depends on the entry (r, l) of the features and on lane l of the bias row only, the 20 blocks tile the
  100000 rows, and the output array after the launch is `biasRelu` of the two arrays the launch found.
-/
import proofs.«170771_j86105504350421_1_alg».proof.Proof.Gen.KernelIdeal.Frame
import proofs.«170771_j86105504350421_1_alg».proof.Proof.Spec
import proofs.«170771_j86105504350421_1_alg».proof.Proof.LibRowVector
import proofs.«170771_j86105504350421_1_alg».proof.Proof.LibRowInDim
import Idealize.ShloMosaic.Lib.Pipeline.Value
import Idealize.ShloMosaic.Lib.ValueIdx
import Idealize.ShloMosaic.Lib.IdealHost

set_option maxRecDepth 16384

noncomputable section

namespace Cert.KernelIdeal.BiasReluValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body at an entry (p, q) of the block: max(a(p, q) + b(0, q), 0). -/
theorem pay_apply (x0 : Vec Ideal S5000x128 .f32) (x1 : Vec Ideal S1x128 .f32) (p : Fin 5000) (q : Fin 128) :
    k1_pay1 x0 x1 (ix2 p q) = max (x0 (ix2 p q) + x1 (ix2 0 q)) (Ideal.ofBits .f32 0x00000000#32) := by
  unfold k1_pay1
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, shapeCast_self, Cert.RowVector.broadcastTo_row (by decide)]
  rfl

/-- The whole-array function at an entry (P, q): max(a(P, q) + b(0, q), 0). -/
theorem spec_apply (a : (⟨S100000x128, .f32⟩ : BufTy).Contents (Elt Ideal)) (row : (⟨S1x128, .f32⟩ : BufTy).Contents (Elt Ideal))
    (P : Fin 100000) (q : Fin 128) :
    Cert.Spec.biasRelu (F := Ideal) a row (ix2 P q) = max (a (ix2 P q) + row (ix2 0 q)) (Ideal.ofBits .f32 0x00000000#32) := by
  unfold Cert.Spec.biasRelu
  rw [maximumf_apply, addf_apply, Cert.RowInDim.broadcastInDim_rows (by decide), broadcastInDim_scalar_apply, constant_apply]

/-- The printed index maps over the 20 points: the features' and the output's blocks are block t of the rows, the bias
    row's block is the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function of the arrays the launch found. -/
theorem flushed_eq (c : Dev nD) (t : Fin cfg1.N) :
    (dat1 V c).flushed 2 t
      = ((cfg1.win 2).blk t).view.read (Elt Ideal) (Cert.Spec.biasRelu (F := Ideal) (V c main_v43) (V c main_v44)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := idx_facts t
  have ht : t.val < 20 := t.isLt
  funext j
  obtain ⟨p, q, rfl⟩ : ∃ (p : Fin 5000) (q : Fin 128), j = ix2 p q := ⟨j 0, j 1, eq_ix2 j⟩
  have hp : p.val < 5000 := p.isLt
  have hrow : t.val * 5000 + p.val < 100000 := by omega
  show k1_pay1 (iblk1 V c 0 t) (iblk1 V c 1 t) (ix2 p q)
    = Cert.Spec.biasRelu (F := Ideal) (V c main_v43) (V c main_v44) (((cfg1.win 2).blk t).view.emb (ix2 p q))
  have hemb : ((cfg1.win 2).blk t).view.emb (ix2 p q) = ix2 (⟨t.val * 5000 + p.val, hrow⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have h0 : iblk1 V c 0 t (ix2 p q) = V c main_v43 (ix2 (⟨t.val * 5000 + p.val, hrow⟩ : Fin 100000) q) := by
    show V c main_v43 (((cfg1.win 0).blk t).view.emb (ix2 p q)) = _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : iblk1 V c 1 t (ix2 0 q) = V c main_v44 (ix2 0 q) := by
    show V c main_v44 (((cfg1.win 1).blk t).view.emb (ix2 0 q)) = _
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [hemb, spec_apply]
  refine (pay_apply _ _ p q).trans ?_
  rw [h0, h1]

/-- An index of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- The 20 blocks tile the array: row r lies in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < 20 := by omega
  obtain ⟨e0, e1, e2, e3, e4, e5⟩ := idx_facts (⟨(i 0).val / 5000, hlt⟩ : Fin cfg1.N)
  have e4' : win1_2.index (⟨(i 0).val / 5000, hlt⟩ : Fin cfg1.N) (0 : Fin 2) = (i 0).val / 5000 := e4
  refine ⟨⟨(i 0).val / 5000, hlt⟩, flush1_2 _, ?_⟩
  rw [mem_blk]
  intro a
  match a with
  | ⟨0, _⟩ =>
    show win1_2.index _ (0 : Fin 2) * 5000 ≤ (i 0).val ∧ (i 0).val < win1_2.index _ (0 : Fin 2) * 5000 + 5000
    omega
  | ⟨1, _⟩ =>
    show win1_2.index _ (1 : Fin 2) * 128 ≤ (i 1).val ∧ (i 1).val < win1_2.index _ (1 : Fin 2) * 128 + 128
    omega

/-- The output array after the launch: the bias row added to every row of the features, then max(·, 0). -/
theorem value (c : Dev nD) :
    (dat1 V c).arrAt 2 cfg1.N = Cert.Spec.biasRelu (F := Ideal) (V c main_v43) (V c main_v44) :=
  (dat1 V c).arrAt_eq_of_cover 2 _ (fun t _ => flushed_eq V c t) cover

end Cert.KernelIdeal.BiasReluValue

end
-- ==== Proof.KRegion2.lean ====
/-
  The third launch (the second layer's matrix product) as one whole-array function, at the exact reals.

  As for the first launch: point t of 20 stages rows 5000·t … 5000·t + 4999 of the hidden features and the whole
  128×32 weight matrix and writes back their product on the same rows; with exact arithmetic entry (r, q) of the output
  is Σ over k of h(r, k) · W(k, q), and the 20 blocks tile the rows, so the output array is the whole product h · W.
-/
import proofs.«170771_j86105504350421_1_alg».proof.Proof.Gen.KernelIdeal.Frame
import proofs.«170771_j86105504350421_1_alg».proof.Proof.Spec
import proofs.«170771_j86105504350421_1_alg».proof.Proof.LibPlainDot
import Idealize.ShloMosaic.Lib.Pipeline.Value
import Idealize.ShloMosaic.Lib.ValueIdx

set_option maxRecDepth 16384

noncomputable section

namespace Cert.KernelIdeal.Dense2Value

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body at an entry (p, q) of the block: the sum over k of a(p, k) · w(k, q). -/
theorem pay_apply (x0 : Vec Ideal S5000x128 .f32) (x1 : Vec Ideal S128x32 .f32) (p : Fin 5000) (q : Fin 32) :
    k2_pay1 x0 x1 (ix2 p q) = ∑ k : Fin 128, x0 (ix2 p k) * x1 (ix2 k q) := by
  unfold k2_pay1
  refine (Cert.PlainDot.matmul_zero_apply dot_S5000x128_S128x32_S5000x32_1_0_0_1_n_n rfl none _ _ p q).trans ?_
  refine Finset.sum_congr rfl fun k _ => ?_
  show shapeCast S5000x128 x0 shapeCasts_S5000x128_S5000x128 (ix2 p k) * x1 (ix2 k q) = _
  rw [shapeCast_self]

/-- The whole-array product at an entry (P, q): the same sum over the whole arrays. -/
theorem spec_apply (A : (⟨S100000x128, .f32⟩ : BufTy).Contents (Elt Ideal)) (B : (⟨S128x32, .f32⟩ : BufTy).Contents (Elt Ideal))
    (P : Fin 100000) (q : Fin 32) :
    Cert.Spec.dense2 (F := Ideal) A B (ix2 P q) = ∑ k : Fin 128, A (ix2 P k) * B (ix2 k q) := by
  unfold Cert.Spec.dense2
  exact Cert.PlainDot.dotGeneral_apply Cert.ReferenceIdeal.dot_S100000x128_S128x32_S100000x32_1_0_0_1_n_n rfl none _ A B P q

/-- The printed index maps over the 20 points: the left operand's and the output's blocks are block t of the rows, the
    right operand's block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array product of the arrays the launch found. -/
theorem flushed_eq (c : Dev nD) (t : Fin cfg2.N) :
    (dat2 V c).flushed 2 t
      = ((cfg2.win 2).blk t).view.read (Elt Ideal) (Cert.Spec.dense2 (F := Ideal) (V c main_v45) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x32) origin]
  obtain ⟨e0, e1, e2, e3, e4, e5⟩ := idx_facts t
  have ht : t.val < 20 := t.isLt
  funext j
  obtain ⟨p, q, rfl⟩ : ∃ (p : Fin 5000) (q : Fin 32), j = ix2 p q := ⟨j 0, j 1, eq_ix2 j⟩
  have hp : p.val < 5000 := p.isLt
  have hrow : t.val * 5000 + p.val < 100000 := by omega
  show k2_pay1 (iblk2 V c 0 t) (iblk2 V c 1 t) (ix2 p q)
    = Cert.Spec.dense2 (F := Ideal) (V c main_v45) (V c main_arg4) (((cfg2.win 2).blk t).view.emb (ix2 p q))
  have hemb : ((cfg2.win 2).blk t).view.emb (ix2 p q) = ix2 (⟨t.val * 5000 + p.val, hrow⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 32 + 1 * q.val = q.val; omega
  have h0 : ∀ k : Fin 128, iblk2 V c 0 t (ix2 p k) = V c main_v45 (ix2 (⟨t.val * 5000 + p.val, hrow⟩ : Fin 100000) k) := fun k => by
    show V c main_v45 (((cfg2.win 0).blk t).view.emb (ix2 p k)) = _
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, iblk2 V c 1 t (ix2 k q) = V c main_arg4 (ix2 k q) := fun k => by
    show V c main_arg4 (((cfg2.win 1).blk t).view.emb (ix2 k q)) = _
    refine congrArg _ ?_
    funext a; apply Fin.ext
    match a with
    | ⟨0, _⟩ => show win2_1.index t (0 : Fin 2) * 128 + 1 * k.val = k.val; omega
    | ⟨1, _⟩ => show win2_1.index t (1 : Fin 2) * 32 + 1 * q.val = q.val; omega
  rw [hemb, spec_apply]
  refine (pay_apply _ _ p q).trans ?_
  refine Finset.sum_congr rfl fun k _ => ?_
  rw [h0 k, h1 k]

/-- An index of the array is in point t's block iff each coordinate is in the block's range on its axis. -/
theorem mem_blk (t : Fin cfg2.N) (i : S100000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v46).slice (win2_2.rect t)).set ↔ _
  rw [View.set_slice_whole, Rect.mem_set_unit]
  exact Iff.rfl

/-- The 20 blocks tile the array: row r lies in the block of point r / 5000. -/
theorem cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hlt : (i 0).val / 5000 < 20 := by omega
  obtain ⟨e0, e1, e2, e3, e4, e5⟩ := idx_facts (⟨(i 0).val / 5000, hlt⟩ : Fin cfg2.N)
  have e4' : win2_2.index (⟨(i 0).val / 5000, hlt⟩ : Fin cfg2.N) (0 : Fin 2) = (i 0).val / 5000 := e4
  refine ⟨⟨(i 0).val / 5000, hlt⟩, flush2_2 _, ?_⟩
  rw [mem_blk]
  intro a
  match a with
  | ⟨0, _⟩ =>
    show win2_2.index _ (0 : Fin 2) * 5000 ≤ (i 0).val ∧ (i 0).val < win2_2.index _ (0 : Fin 2) * 5000 + 5000
    omega
  | ⟨1, _⟩ =>
    show win2_2.index _ (1 : Fin 2) * 32 ≤ (i 1).val ∧ (i 1).val < win2_2.index _ (1 : Fin 2) * 32 + 32
    omega

/-- The output array after the launch: the matrix product of the two arrays the launch found. -/
theorem value (c : Dev nD) :
    (dat2 V c).arrAt 2 cfg2.N = Cert.Spec.dense2 (F := Ideal) (V c main_v45) (V c main_arg4) :=
  (dat2 V c).arrAt_eq_of_cover 2 _ (fun t _ => flushed_eq V c t) cover

end Cert.KernelIdeal.Dense2Value

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.KRegion3.lean ====
/-
  The fourth launch (bias and row-wise log-softmax) as one whole-array function, at the exact reals.

  Point t of 20 stages rows 5000·t … 5000·t + 4999 of the aggregated second-layer features (32 lanes) and the whole
  1×32 bias row.  With z = a + b on a row, M the maximum of the row's 32 entries (a fold of max from −∞), the body writes
  (z − M) − log Σ over the lanes of exp (z − M).  The whole-array function does the same on every row of the 100000: its
  row maximum is a max-reduction from −∞ followed by one more max with −∞, which changes nothing since the fold is
  already above its start, and its sum starts from 0.  Both are the one row function `lsmRow` of the row z, so the
  block a point writes back is its block of the whole-array function, and the 20 blocks tile the rows.
-/
import proofs.«170771_j86105504350421_1_alg».proof.Proof.Gen.KernelIdeal.Frame
import proofs.«170771_j86105504350421_1_alg».proof.Proof.Spec
import proofs.«170771_j86105504350421_1_alg».proof.Proof.LibRowVector
import proofs.«170771_j86105504350421_1_alg».proof.Proof.LibRowInDim
import proofs.«170771_j86105504350421_1_alg».proof.Proof.LibColumnInDim
import proofs.«170771_j86105504350421_1_alg».proof.Proof.LibRowOps
import proofs.«170771_j86105504350421_1_alg».proof.Proof.LibKeepdims
import Idealize.ShloMosaic.Lib.IdealHost
import Idealize.ShloMosaic.PureOps.Ideal.Laws
import Idealize.ShloMosaic.PureOps.Reduce
import Idealize.ShloMosaic.Lib.Pipeline.Value
import Idealize.ShloMosaic.Lib.ValueIdx

set_option maxRecDepth 16384

noncomputable section

namespace Cert.KernelIdeal.LogSoftmaxValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

open scoped BigOperators

/-- The log-softmax of one row of 32 entries: (z − M) − log Σ exp (z − M), M the row's maximum taken from −∞. -/
def lsmRow (z : Fin 32 → EReal) (q : Fin 32) : EReal :=
  (z q - (Finset.univ : Finset (Fin 32)).fold max (Ideal.ofBits .f32 0xFF800000#32) z)
    - Ideal.log (∑ l : Fin 32, Ideal.exp (z l - (Finset.univ : Finset (Fin 32)).fold max (Ideal.ofBits .f32 0xFF800000#32) z))

/-- The transcendental operations at an entry, at the exact reals. -/
theorem exp_apply {s : Shape} (x : FVec Ideal s .f32) (i : s.Idx) : exp x i = Ideal.exp (x i) := rfl
theorem log_apply {s : Shape} (x : FVec Ideal s .f32) (i : s.Idx) : log x i = Ideal.log (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-! ## The body -/

/-- The block with the bias row added to every row. -/
def biased (x0 : Vec Ideal S5000x32 .f32) (x1 : Vec Ideal S1x32 .f32) : FVec Ideal S5000x32 .f32 :=
  addf (shapeCast S5000x32 x0 shapeCasts_S5000x32_S5000x32)
    (broadcastTo S5000x32 (shapeCast S1x32 x1 shapeCasts_S1x32_S1x32) broadcasts_S1x32_S5000x32)

theorem biased_apply (x0 : Vec Ideal S5000x32 .f32) (x1 : Vec Ideal S1x32 .f32) (p : Fin 5000) (l : Fin 32) :
    biased x0 x1 (ix2 p l) = x0 (ix2 p l) + x1 (ix2 0 l) := by
  unfold biased
  rw [addf_apply, shapeCast_self, shapeCast_self, Cert.RowVector.broadcastTo_row (by decide)]

/-- A block's row maxima, put back on the lanes of their rows. -/
def keptMax (v : FVec Ideal S5000x32 .f32) : FVec Ideal S5000x32 .f32 :=
  broadcastTo S5000x32 (shapeCast S5000x1 (multiReduction .maximumf [1] S5000 v 0xFF800000#32 reduces_S5000x32_S5000 (.inl rfl) rfl)
    shapeCasts_S5000_S5000x1) broadcasts_S5000x1_S5000x32

theorem keptMax_apply (v : FVec Ideal S5000x32 .f32) (p : Fin 5000) (q : Fin 32) :
    keptMax v (ix2 p q) = (Finset.univ : Finset (Fin 32)).fold max (Ideal.ofBits .f32 0xFF800000#32) (fun l => v (ix2 p l)) :=
  (RowOps.broadcastTo_a1_ab_apply _ _ p q).trans ((RowOps.shapeCast_a_a1_apply _ _ p 0).trans (RowOps.rowMax_apply v _ _ _ _ p))

/-- The logarithm of a block's row sums, put back on the lanes of their rows. -/
def keptLogSum (v : FVec Ideal S5000x32 .f32) : FVec Ideal S5000x32 .f32 :=
  broadcastTo S5000x32 (log (shapeCast S5000x1 (multiReduction .add [1] S5000 v 0x00000000#32 reduces_S5000x32_S5000 (.inl rfl) rfl)
    shapeCasts_S5000_S5000x1)) broadcasts_S5000x1_S5000x32

theorem keptLogSum_apply (v : FVec Ideal S5000x32 .f32) (p : Fin 5000) (q : Fin 32) :
    keptLogSum v (ix2 p q) = Ideal.log (∑ l : Fin 32, v (ix2 p l)) :=
  (RowOps.broadcastTo_a1_ab_apply _ _ p q).trans ((log_apply _ _).trans
    (congrArg Ideal.log ((RowOps.shapeCast_a_a1_apply _ _ p 0).trans (RowOps.rowSum_apply v _ _ _ _ p))))

/-- The body's stored value in those terms. -/
theorem pay_eq (x0 : Vec Ideal S5000x32 .f32) (x1 : Vec Ideal S1x32 .f32) :
    k3_pay1 x0 x1 = subf (subf (biased x0 x1) (keptMax (biased x0 x1)))
      (keptLogSum (exp (subf (biased x0 x1) (keptMax (biased x0 x1))))) := rfl

/-- The body at an entry (p, q) of the block: the log-softmax of row p of a + b, at lane q. -/
theorem pay_apply (x0 : Vec Ideal S5000x32 .f32) (x1 : Vec Ideal S1x32 .f32) (p : Fin 5000) (q : Fin 32) :
    k3_pay1 x0 x1 (ix2 p q) = lsmRow (fun l => x0 (ix2 p l) + x1 (ix2 0 l)) q := by
  rw [pay_eq, subf_apply, subf_apply, keptMax_apply, keptLogSum_apply]
  have hs : ∀ l : Fin 32, exp (subf (biased x0 x1) (keptMax (biased x0 x1))) (ix2 p l)
      = Ideal.exp (biased x0 x1 (ix2 p l)
          - (Finset.univ : Finset (Fin 32)).fold max (Ideal.ofBits .f32 0xFF800000#32) (fun l => biased x0 x1 (ix2 p l))) := fun l => by
    rw [exp_apply, subf_apply, keptMax_apply]
  simp only [hs, biased_apply]
  rfl

/-! ## The whole-array function -/

theorem reduces_rows : (⟨2, ![100000, 32]⟩ : Shape).Reduces [1] (⟨1, ![100000]⟩ : Shape) := by decide

/-- The row maximum at row P: the fold of max from −∞ over the row. -/
theorem rowMax_apply (Z : (⟨S100000x32, .f32⟩ : BufTy).Contents (Elt Ideal)) (P : Fin 100000) :
    Cert.Spec.rowMax (F := Ideal) Z (ix1 P)
      = (Finset.univ : Finset (Fin 32)).fold max (Ideal.ofBits .f32 0xFF800000#32) (fun l => Z (ix2 P l)) := by
  have hf : ((Z : (⟨2, ![100000, 32]⟩ : Shape).Idx → Ideal .f32) ∘ reduces_rows.lift (ix1 P)) = fun l : Fin 32 => Z (ix2 P l) :=
    funext fun l => congrArg Z (RowOps.lift_row reduces_rows P l)
  have hred : Host.reduce (FloatOps.maximumf (F := Ideal) (φ := .f32)) (Z : (⟨2, ![100000, 32]⟩ : Shape).Idx → Ideal .f32)
        (constant (F := Ideal) Cert.ReferenceIdeal.S_ .f32 0xFF800000#32)
        Cert.ReferenceIdeal.Gen.reducesTo_S100000x32_S100000_d1 Cert.ReferenceIdeal.Gen.h_S_ (ix1 P)
      = (Finset.univ : Finset (Fin 32)).fold max (Ideal.ofBits .f32 0xFF800000#32) (fun l => Z (ix2 P l)) :=
    (Host.reduce_eq_fold_single (FloatOps.maximumf (F := Ideal) (φ := .f32)) (Z : (⟨2, ![100000, 32]⟩ : Shape).Idx → Ideal .f32) _
        Cert.ReferenceIdeal.Gen.reducesTo_S100000x32_S100000_d1 reduces_rows Cert.ReferenceIdeal.Gen.h_S_ (ix1 P)).trans
      (congrArg (fun f => Finset.fold max (Ideal.ofBits .f32 0xFF800000#32) f (Finset.univ : Finset (Fin 32))) hf)
  unfold Cert.Spec.rowMax
  rw [maximumf_apply, broadcastInDim_scalar_apply, constant_apply]
  exact (congrArg (max (Ideal.ofBits .f32 0xFF800000#32)) hred).trans (Idealize.ShloMosaic.Keepdims.max_fold_max_self _ _ _)

/-- z − max z at an entry. -/
theorem shifted_apply (Z : (⟨S100000x32, .f32⟩ : BufTy).Contents (Elt Ideal)) (P : Fin 100000) (q : Fin 32) :
    Cert.Spec.shifted (F := Ideal) Z (ix2 P q)
      = Z (ix2 P q) - (Finset.univ : Finset (Fin 32)).fold max (Ideal.ofBits .f32 0xFF800000#32) (fun l => Z (ix2 P l)) := by
  unfold Cert.Spec.shifted Cert.Spec.overLanes Cert.Spec.asRows
  rw [subf_apply, Cert.ColumnInDim.broadcastInDim_lanes, Cert.ColumnInDim.broadcastInDim_column, rowMax_apply]

/-- The log-softmax at an entry: the row function of the row. -/
theorem logSoftmax_apply (Z : (⟨S100000x32, .f32⟩ : BufTy).Contents (Elt Ideal)) (P : Fin 100000) (q : Fin 32) :
    Cert.Spec.logSoftmax (F := Ideal) Z (ix2 P q) = lsmRow (fun l => Z (ix2 P l)) q := by
  unfold Cert.Spec.logSoftmax Cert.Spec.overLanes Cert.Spec.asRows
  rw [subf_apply, Cert.ColumnInDim.broadcastInDim_lanes, shifted_apply, hostLog_apply,
    Cert.ColumnInDim.broadcastInDim_column, hostReduceAdd_apply,
    Ideal.hostReduceAdd_single Cert.ReferenceIdeal.Gen.reducesTo_S100000x32_S100000_d1 reduces_rows]
  have hterm : ∀ l : Fin 32, Host.exp (F := Ideal) (s := (⟨2, ![100000, 32]⟩ : Shape)) (φ := .f32) (Cert.Spec.shifted (F := Ideal) Z) (reduces_rows.lift (ix1 P) l)
      = Ideal.exp (Z (ix2 P l) - (Finset.univ : Finset (Fin 32)).fold max (Ideal.ofBits .f32 0xFF800000#32) (fun l => Z (ix2 P l))) := fun l => by
    rw [RowOps.lift_row reduces_rows P l, hostExp_apply]
    exact congrArg Ideal.exp (shifted_apply Z P l)
  have hsum : (∑ k : Fin ((⟨2, ![100000, 32]⟩ : Shape).size 1), Host.exp (F := Ideal) (s := (⟨2, ![100000, 32]⟩ : Shape)) (φ := .f32) (Cert.Spec.shifted (F := Ideal) Z) (reduces_rows.lift (ix1 P) k))
      = ∑ l : Fin 32, Ideal.exp (Z (ix2 P l) - (Finset.univ : Finset (Fin 32)).fold max (Ideal.ofBits .f32 0xFF800000#32) (fun l => Z (ix2 P l))) :=
    Finset.sum_congr rfl (fun l _ => hterm l)
  rw [hsum, constant_apply, Ideal.ofBits_zero_f32, zero_add]
  rfl

/-- With the bias row added first. -/
theorem spec_apply (a : (⟨S100000x32, .f32⟩ : BufTy).Contents (Elt Ideal)) (row : (⟨S1x32, .f32⟩ : BufTy).Contents (Elt Ideal))
    (P : Fin 100000) (q : Fin 32) :
    Cert.Spec.biasLogSoftmax (F := Ideal) a row (ix2 P q) = lsmRow (fun l => a (ix2 P l) + row (ix2 0 l)) q := by
  unfold Cert.Spec.biasLogSoftmax
  rw [logSoftmax_apply]
  refine congrArg (fun z => lsmRow z q) (funext fun l => ?_)
  rw [addf_apply, Cert.RowInDim.broadcastInDim_rows (by decide)]

/-! ## From the blocks to the array -/

/-- The printed index maps over the 20 points: the features' and the output's blocks are block t of the rows, the bias
    row's block is the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function of the arrays the launch found. -/
theorem flushed_eq (c : Dev nD) (t : Fin cfg3.N) :
    (dat3 V c).flushed 2 t
      = ((cfg3.win 2).blk t).view.read (Elt Ideal) (Cert.Spec.biasLogSoftmax (F := Ideal) (V c main_v85) (V c main_v86)) := by
  show (cfg3.win 2).cut (grid3.coords t) ((dat3 V c).after 2 t) = _
  rw [after3_2]
  unfold out3_2
  rw [View.canon_unit_zero origin]
  simp only [View.ld_unit_zero (S := S5000x32) origin, View.ld_unit_zero (S := S1x32) origin]
  obtain ⟨e0, e1, e2, e3, e4, e5⟩ := idx_facts t
  have ht : t.val < 20 := t.isLt
  funext j
  obtain ⟨p, q, rfl⟩ : ∃ (p : Fin 5000) (q : Fin 32), j = ix2 p q := ⟨j 0, j 1, eq_ix2 j⟩
  have hp : p.val < 5000 := p.isLt
  have hrow : t.val * 5000 + p.val < 100000 := by omega
  show k3_pay1 (iblk3 V c 0 t) (iblk3 V c 1 t) (ix2 p q)
    = Cert.Spec.biasLogSoftmax (F := Ideal) (V c main_v85) (V c main_v86) (((cfg3.win 2).blk t).view.emb (ix2 p q))
  have hemb : ((cfg3.win 2).blk t).view.emb (ix2 p q) = ix2 (⟨t.val * 5000 + p.val, hrow⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 32 + 1 * q.val = q.val; omega
  have h0 : ∀ l : Fin 32, iblk3 V c 0 t (ix2 p l) = V c main_v85 (ix2 (⟨t.val * 5000 + p.val, hrow⟩ : Fin 100000) l) := fun l => by
    show V c main_v85 (((cfg3.win 0).blk t).view.emb (ix2 p l)) = _
    refine congrArg _ ?_
    funext a; apply Fin.ext
    match a with
    | ⟨0, _⟩ => show win3_0.index t (0 : Fin 2) * 5000 + 1 * p.val = t.val * 5000 + p.val; omega
    | ⟨1, _⟩ => show win3_0.index t (1 : Fin 2) * 32 + 1 * l.val = l.val; omega
  have h1 : ∀ l : Fin 32, iblk3 V c 1 t (ix2 0 l) = V c main_v86 (ix2 0 l) := fun l => by
    show V c main_v86 (((cfg3.win 1).blk t).view.emb (ix2 0 l)) = _
    refine congrArg _ ?_
    funext a; apply Fin.ext
    match a with
    | ⟨0, _⟩ => show win3_1.index t (0 : Fin 2) * 1 + 1 * 0 = 0; omega
    | ⟨1, _⟩ => show win3_1.index t (1 : Fin 2) * 32 + 1 * l.val = l.val; omega
  rw [hemb, spec_apply]
  refine (pay_apply _ _ p q).trans ?_
  refine congrArg (fun z => lsmRow z q) (funext fun l => ?_)
  rw [h0 l, h1 l]

/-- An index of the array is in point t's block iff each coordinate is in the block's range on its axis. -/
theorem mem_blk (t : Fin cfg3.N) (i : S100000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v87).slice (win3_2.rect t)).set ↔ _
  rw [View.set_slice_whole, Rect.mem_set_unit]
  exact Iff.rfl

/-- The 20 blocks tile the array: row r lies in the block of point r / 5000. -/
theorem cover (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hlt : (i 0).val / 5000 < 20 := by omega
  obtain ⟨e0, e1, e2, e3, e4, e5⟩ := idx_facts (⟨(i 0).val / 5000, hlt⟩ : Fin cfg3.N)
  have e4' : win3_2.index (⟨(i 0).val / 5000, hlt⟩ : Fin cfg3.N) (0 : Fin 2) = (i 0).val / 5000 := e4
  refine ⟨⟨(i 0).val / 5000, hlt⟩, flush3_2 _, ?_⟩
  rw [mem_blk]
  intro a
  match a with
  | ⟨0, _⟩ =>
    show win3_2.index _ (0 : Fin 2) * 5000 ≤ (i 0).val ∧ (i 0).val < win3_2.index _ (0 : Fin 2) * 5000 + 5000
    omega
  | ⟨1, _⟩ =>
    show win3_2.index _ (1 : Fin 2) * 32 ≤ (i 1).val ∧ (i 1).val < win3_2.index _ (1 : Fin 2) * 32 + 32
    omega

/-- The output array after the launch: the bias row added to every row of the features, then the row-wise log-softmax. -/
theorem value (c : Dev nD) :
    (dat3 V c).arrAt 2 cfg3.N = Cert.Spec.biasLogSoftmax (F := Ideal) (V c main_v85) (V c main_v86) :=
  (dat3 V c).arrAt_eq_of_cover 2 _ (fun t _ => flushed_eq V c t) cover

end Cert.KernelIdeal.LogSoftmaxValue

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.KChain.lean ====
/-
  The idealized kernel's result, at the exact reals, as one function of the argument arrays.

  Reading the boundary contents backwards from the return: the result buffer is the fourth launch's output, the
  log-softmax of (the second aggregation + the second bias row); the second aggregation is of the third launch's
  output, the product of the hidden features with W2; the hidden features are the second launch's output,
  max(first aggregation + first bias row, 0); the first aggregation is of the first launch's output, x · W1.  The
  endpoints of the edges and the bias vectors reach each stage unchanged from the launch memory.  A bias vector
  reshaped to a 1×n row is the same array as the vector broadcast along axis 1 into that row, which is how the
  reference spells it.
-/
import proofs.«170771_j86105504350421_1_alg».proof.Proof.KHost
import proofs.«170771_j86105504350421_1_alg».proof.Proof.KRegion0
import proofs.«170771_j86105504350421_1_alg».proof.Proof.KRegion1
import proofs.«170771_j86105504350421_1_alg».proof.Proof.KRegion2
import proofs.«170771_j86105504350421_1_alg».proof.Proof.KRegion3
import proofs.«170771_j86105504350421_1_alg».proof.Proof.LibRowOfVector

set_option maxRecDepth 16384

noncomputable section

namespace Cert.KernelIdeal.Chain

open Idealize.ShloMosaic Idealize.ShloMosaic.TcCoe Idealize.SL.Sem
open Cert.KernelIdeal Cert.KernelIdeal.Gen Cert.KernelIdeal.HostParts

variable (m : (ℓ : Loc nD τ sig) → Buf (Elt Ideal) ℓ) (ρ : Dev nD → PrngReg)

/-- The four launches' output arrays, each as its whole-array function of what the launch found. -/
theorem launch0 (c : Dev nD) : W2 m ρ c (Proc.devRef .tc main_v4)
    = Cert.Spec.dense1 (F := Ideal) (W1 m ρ c (Proc.devRef .tc main_arg0)) (W1 m ρ c (Proc.devRef .tc main_arg2)) :=
  (W2_arr m ρ c 2).trans (Cert.KernelIdeal.Dense1Value.value (V1 m ρ) c)
theorem launch1 (c : Dev nD) : W6 m ρ c (Proc.devRef .tc main_v45)
    = Cert.Spec.biasRelu (F := Ideal) (W5 m ρ c (Proc.devRef .tc main_v43)) (W5 m ρ c (Proc.devRef .tc main_v44)) :=
  (W6_arr m ρ c 2).trans (Cert.KernelIdeal.BiasReluValue.value (V5 m ρ) c)
theorem launch2 (c : Dev nD) : W7 m ρ c (Proc.devRef .tc main_v46)
    = Cert.Spec.dense2 (F := Ideal) (W6 m ρ c (Proc.devRef .tc main_v45)) (W6 m ρ c (Proc.devRef .tc main_arg4)) :=
  (W7_arr m ρ c 2).trans (Cert.KernelIdeal.Dense2Value.value (V6 m ρ) c)
theorem launch3 (c : Dev nD) : W11 m ρ c (Proc.devRef .tc main_v87)
    = Cert.Spec.biasLogSoftmax (F := Ideal) (W10 m ρ c (Proc.devRef .tc main_v85)) (W10 m ρ c (Proc.devRef .tc main_v86)) :=
  (W11_arr m ρ c 2).trans (Cert.KernelIdeal.LogSoftmaxValue.value (V10 m ρ) c)

/-- The result buffer at the return: the network of the launch contents of the six arguments. -/
theorem result_eq (c : Dev nD) : W11 m ρ c (Proc.devRef .tc main_v87)
    = Cert.Spec.network (F := Ideal) (m ((c : Thread nD τ).loc main_arg0)) (m ((c : Thread nD τ).loc main_arg1)) (m ((c : Thread nD τ).loc main_arg2))
        (broadcastInDim Cert.ReferenceIdeal.S1x128 ![1] Cert.ReferenceIdeal.Gen.bcast_S128_S1x128_1 (m ((c : Thread nD τ).loc main_arg3)))
        (m ((c : Thread nD τ).loc main_arg4))
        (broadcastInDim Cert.ReferenceIdeal.S1x32 ![1] Cert.ReferenceIdeal.Gen.bcast_S32_S1x32_1 (m ((c : Thread nD τ).loc main_arg5))) := by
  rw [launch3 m ρ c, last_agg m ρ c, last_bias m ρ c, src_at_last m ρ c, dst_at_last m ρ c, arg5_at_last m ρ c,
    launch2 m ρ c, arg4_at_third m ρ c, launch1 m ρ c, mid_agg m ρ c, mid_bias m ρ c, src_at_mid m ρ c, dst_at_mid m ρ c,
    arg3_at_mid m ρ c, launch0 m ρ c, first_main_arg0 m ρ c, first_main_arg2 m ρ c,
    Cert.RowOfVector.shapeCast_eq_broadcastInDim (n := 128) (by decide) _ _ Cert.ReferenceIdeal.Gen.bcast_S128_S1x128_1,
    Cert.RowOfVector.shapeCast_eq_broadcastInDim (n := 32) (by decide) _ _ Cert.ReferenceIdeal.Gen.bcast_S32_S1x32_1]
  rfl

end Cert.KernelIdeal.Chain

end
-- ==== Proof.RefRun.lean ====
/-
  The reference program's whole run.  Its @main is a straight line of 134 host operations (the functions it calls
  written out at their call sites); every weakly fair execution of it terminates, and each buffer ends at the fold of
  the operations' results over the launch memory.  The line is read in five pieces, each from ANY contents found at
  its start: the edge array cut into its rows and the first dense product; the first aggregation; bias, rectifier and
  the second dense product; the second aggregation; bias and log-softmax.  Composed, the result buffer holds the
  two-layer graph convolution of the six argument arrays (Spec.lean's `network`), the two bias vectors entering as
  1×n rows by a broadcast along axis 1; an argument buffer holds its launch contents, since no operation writes one.
-/
import proofs.«170771_j86105504350421_1_alg».proof.Proof.Gen.ReferenceIdeal
import proofs.«170771_j86105504350421_1_alg».proof.Proof.Spec
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- @main's operations in program order. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x32 ![0, 1] bcast_S1700000x1_S1700000x32_0_1 : (⟨S1700000x1, .f32⟩ : BufTy).Contents (Elt F) → (⟨S1700000x32, .f32⟩ : BufTy).Contents (Elt F)),
    binary main_v81 main_v83 main_v84 (mulf : (⟨S1700000x32, .f32⟩ : BufTy).Contents (Elt F) → (⟨S1700000x32, .f32⟩ : BufTy).Contents (Elt F) → (⟨S1700000x32, .f32⟩ : BufTy).Contents (Elt F)),
    nullary main_cst_19 (constant S_ .f32 0x00000000#32),
    unary main_cst_19 main_v85 (broadcastInDim S100000x32 ![] bcast_S_S100000x32 : (⟨S_, .f32⟩ : BufTy).Contents (Elt F) → (⟨S100000x32, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg5 main_v88 (broadcastInDim S1x32 ![1] bcast_S32_S1x32_1 : (⟨S32, .f32⟩ : BufTy).Contents (Elt F) → (⟨S1x32, .f32⟩ : BufTy).Contents (Elt F)),
    unary main_v88 main_v89 (broadcastInDim S100000x32 ![0, 1] bcast_S1x32_S100000x32_0_1 : (⟨S1x32, .f32⟩ : BufTy).Contents (Elt F) → (⟨S100000x32, .f32⟩ : BufTy).Contents (Elt F)),
    binary main_v87 main_v89 main_v90 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0xFF800000#32),
    TRef.binary (TRef.of (T := ⟨S100000x32, .f32⟩) main_v90) (TRef.of (T := ⟨S_, .f32⟩) main_call3_cst) (TRef.of (T := ⟨S100000, .f32⟩) main_call3_v0) (fun x v => Host.reduce FloatOps.maximumf x v reducesTo_S100000x32_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v90) (TRef.of (T := ⟨S100000x32, .f32⟩) main_call3_v4) (TRef.of (T := ⟨S100000x32, .f32⟩) main_call3_v5) subf,
    TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v91) subf ]

set_option maxRecDepth 8192 in
set_option maxHeartbeats 4000000 in
/-- @main is the straight line of those operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The five pieces -/

/-- The edge array's two rows as vectors, and the first dense product. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The first layer's aggregation over the edges. -/
abbrev opsB : List (HloOp τ sig (Elt F)) :=
  [ nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The first bias and the rectifier, then the second dense product. -/
abbrev opsC : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)) ]
/-- The second layer's aggregation over the edges. -/
abbrev opsD : List (HloOp τ sig (Elt F)) :=
  [ nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x32 ![0, 1] bcast_S1700000x1_S1700000x32_0_1 : (⟨S1700000x1, .f32⟩ : BufTy).Contents (Elt F) → (⟨S1700000x32, .f32⟩ : BufTy).Contents (Elt F)),
    binary main_v81 main_v83 main_v84 (mulf : (⟨S1700000x32, .f32⟩ : BufTy).Contents (Elt F) → (⟨S1700000x32, .f32⟩ : BufTy).Contents (Elt F) → (⟨S1700000x32, .f32⟩ : BufTy).Contents (Elt F)),
    nullary main_cst_19 (constant S_ .f32 0x00000000#32),
    unary main_cst_19 main_v85 (broadcastInDim S100000x32 ![] bcast_S_S100000x32 : (⟨S_, .f32⟩ : BufTy).Contents (Elt F) → (⟨S100000x32, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)) ]
/-- The second bias and the row-wise log-softmax. -/
abbrev opsE : List (HloOp τ sig (Elt F)) :=
  [ unary main_arg5 main_v88 (broadcastInDim S1x32 ![1] bcast_S32_S1x32_1 : (⟨S32, .f32⟩ : BufTy).Contents (Elt F) → (⟨S1x32, .f32⟩ : BufTy).Contents (Elt F)),
    unary main_v88 main_v89 (broadcastInDim S100000x32 ![0, 1] bcast_S1x32_S100000x32_0_1 : (⟨S1x32, .f32⟩ : BufTy).Contents (Elt F) → (⟨S100000x32, .f32⟩ : BufTy).Contents (Elt F)),
    binary main_v87 main_v89 main_v90 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0xFF800000#32),
    TRef.binary (TRef.of (T := ⟨S100000x32, .f32⟩) main_v90) (TRef.of (T := ⟨S_, .f32⟩) main_call3_cst) (TRef.of (T := ⟨S100000, .f32⟩) main_call3_v0) (fun x v => Host.reduce FloatOps.maximumf x v reducesTo_S100000x32_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v90) (TRef.of (T := ⟨S100000x32, .f32⟩) main_call3_v4) (TRef.of (T := ⟨S100000x32, .f32⟩) main_call3_v5) subf,
    TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v91) subf ]

set_option maxRecDepth 8192 in
/-- The line is its five pieces in order. -/
theorem ops_split : (ops : List (HloOp τ sig (Elt F))) = opsA ++ (opsB ++ (opsC ++ (opsD ++ opsE))) := rfl

/-- Running two lines one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ### Piece 1 -/

theorem pieceA_dense (W : Valuation τ sig (Elt F)) : after opsA W (Proc.devRef .tc main_v4)
    = Cert.Spec.dense1 (F := F) (W (Proc.devRef .tc main_arg0)) (W (Proc.devRef .tc main_arg2)) := by
  after_results_simp <;> rfl
theorem pieceA_src (W : Valuation τ sig (Elt F)) : after opsA W (Proc.devRef .tc main_v1) = Cert.Spec.srcOf (F := F) (W (Proc.devRef .tc main_arg1)) := by
  after_results_simp <;> rfl
theorem pieceA_dst (W : Valuation τ sig (Elt F)) : after opsA W (Proc.devRef .tc main_v3) = Cert.Spec.dstOf (F := F) (W (Proc.devRef .tc main_arg1)) := by
  after_results_simp <;> rfl
theorem keepA_main_arg3 (W : Valuation τ sig (Elt F)) : after opsA W (Proc.devRef .tc main_arg3) = W (Proc.devRef .tc main_arg3) := by
  after_results_simp
theorem keepA_main_arg4 (W : Valuation τ sig (Elt F)) : after opsA W (Proc.devRef .tc main_arg4) = W (Proc.devRef .tc main_arg4) := by
  after_results_simp
theorem keepA_main_arg5 (W : Valuation τ sig (Elt F)) : after opsA W (Proc.devRef .tc main_arg5) = W (Proc.devRef .tc main_arg5) := by
  after_results_simp

/-! ### Piece 2 -/

set_option maxHeartbeats 2000000 in
theorem pieceB_agg (W : Valuation τ sig (Elt F)) : after opsB W (Proc.devRef .tc main_v43)
    = Cert.Spec.aggregate128 (F := F) (W (Proc.devRef .tc main_v4)) (W (Proc.devRef .tc main_v1)) (W (Proc.devRef .tc main_v3)) := by
  after_results_simp
  rfl
theorem keepB_main_v1 (W : Valuation τ sig (Elt F)) : after opsB W (Proc.devRef .tc main_v1) = W (Proc.devRef .tc main_v1) := by
  after_results_simp
theorem keepB_main_v3 (W : Valuation τ sig (Elt F)) : after opsB W (Proc.devRef .tc main_v3) = W (Proc.devRef .tc main_v3) := by
  after_results_simp
theorem keepB_main_arg3 (W : Valuation τ sig (Elt F)) : after opsB W (Proc.devRef .tc main_arg3) = W (Proc.devRef .tc main_arg3) := by
  after_results_simp
theorem keepB_main_arg4 (W : Valuation τ sig (Elt F)) : after opsB W (Proc.devRef .tc main_arg4) = W (Proc.devRef .tc main_arg4) := by
  after_results_simp
theorem keepB_main_arg5 (W : Valuation τ sig (Elt F)) : after opsB W (Proc.devRef .tc main_arg5) = W (Proc.devRef .tc main_arg5) := by
  after_results_simp

/-! ### Piece 3 -/

theorem pieceC_dense (W : Valuation τ sig (Elt F)) : after opsC W (Proc.devRef .tc main_v48)
    = Cert.Spec.dense2 (F := F)
        (Cert.Spec.biasRelu (F := F) (W (Proc.devRef .tc main_v43)) (broadcastInDim S1x128 ![1] bcast_S128_S1x128_1 (W (Proc.devRef .tc main_arg3))))
        (W (Proc.devRef .tc main_arg4)) := by
  after_results_simp <;> rfl
theorem keepC_main_v1 (W : Valuation τ sig (Elt F)) : after opsC W (Proc.devRef .tc main_v1) = W (Proc.devRef .tc main_v1) := by
  after_results_simp
theorem keepC_main_v3 (W : Valuation τ sig (Elt F)) : after opsC W (Proc.devRef .tc main_v3) = W (Proc.devRef .tc main_v3) := by
  after_results_simp
theorem keepC_main_arg5 (W : Valuation τ sig (Elt F)) : after opsC W (Proc.devRef .tc main_arg5) = W (Proc.devRef .tc main_arg5) := by
  after_results_simp

/-! ### Piece 4 -/

set_option maxHeartbeats 2000000 in
theorem pieceD_agg (W : Valuation τ sig (Elt F)) : after opsD W (Proc.devRef .tc main_v87)
    = Cert.Spec.aggregate32 (F := F) (W (Proc.devRef .tc main_v48)) (W (Proc.devRef .tc main_v1)) (W (Proc.devRef .tc main_v3)) := by
  after_results_simp
  rfl
theorem keepD_main_arg5 (W : Valuation τ sig (Elt F)) : after opsD W (Proc.devRef .tc main_arg5) = W (Proc.devRef .tc main_arg5) := by
  after_results_simp

/-! ### Piece 5 -/

/-- The second bias added, and the row maxima of the logits. -/
abbrev opsE1 : List (HloOp τ sig (Elt F)) :=
  [ unary main_arg5 main_v88 (broadcastInDim S1x32 ![1] bcast_S32_S1x32_1 : (⟨S32, .f32⟩ : BufTy).Contents (Elt F) → (⟨S1x32, .f32⟩ : BufTy).Contents (Elt F)),
    unary main_v88 main_v89 (broadcastInDim S100000x32 ![0, 1] bcast_S1x32_S100000x32_0_1 : (⟨S1x32, .f32⟩ : BufTy).Contents (Elt F) → (⟨S100000x32, .f32⟩ : BufTy).Contents (Elt F)),
    binary main_v87 main_v89 main_v90 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0xFF800000#32),
    TRef.binary (TRef.of (T := ⟨S100000x32, .f32⟩) main_v90) (TRef.of (T := ⟨S_, .f32⟩) main_call3_cst) (TRef.of (T := ⟨S100000, .f32⟩) main_call3_v0) (fun x v => Host.reduce FloatOps.maximumf x v reducesTo_S100000x32_S100000_d1 h_S_) ]
/-- The logits shifted by their row maxima. -/
abbrev opsE2 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v90) (TRef.of (T := ⟨S100000x32, .f32⟩) main_call3_v4) (TRef.of (T := ⟨S100000x32, .f32⟩) main_call3_v5) subf ]
/-- The logarithm of the row sums of the exponentials, taken off the shifted logits. -/
abbrev opsE3 : List (HloOp τ sig (Elt F)) :=
  [ TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v91) subf ]

/-- Piece 5 is those three in order. -/
theorem opsE_split : (opsE : List (HloOp τ sig (Elt F))) = opsE1 ++ (opsE2 ++ opsE3) := rfl

/-- The logits: the second aggregation plus the bias row on every row. -/
theorem pieceE_logits (W : Valuation τ sig (Elt F)) : after opsE1 W (Proc.devRef .tc main_v90)
    = addf (W (Proc.devRef .tc main_v87))
        (broadcastInDim S100000x32 ![0, 1] bcast_S1x32_S100000x32_0_1 (broadcastInDim S1x32 ![1] bcast_S32_S1x32_1 (W (Proc.devRef .tc main_arg5)))) := by
  after_results_simp

-- the reduction over a row is compared as a whole, never opened
attribute [local irreducible] Host.reduce in
/-- Their row maxima, by a max-reduction from −∞. -/
theorem pieceE_max (W : Valuation τ sig (Elt F)) : after opsE1 W (Proc.devRef .tc main_call3_v0)
    = Host.reduce (FloatOps.maximumf (F := F))
        (addf (W (Proc.devRef .tc main_v87))
          (broadcastInDim S100000x32 ![0, 1] bcast_S1x32_S100000x32_0_1 (broadcastInDim S1x32 ![1] bcast_S32_S1x32_1 (W (Proc.devRef .tc main_arg5)))))
        (constant (F := F) S_ .f32 0xFF800000#32) reducesTo_S100000x32_S100000_d1 h_S_ := by
  after_results_simp
  rfl

/-- The logits minus their row maxima (one more max with −∞ first). -/
theorem pieceE_shift (W : Valuation τ sig (Elt F)) : after opsE2 W (Proc.devRef .tc main_call3_v5)
    = subf (W (Proc.devRef .tc main_v90)) (Cert.Spec.overLanes (F := F) (Cert.Spec.asRows (F := F)
        (maximumf (broadcastInDim S100000 ![] bcast_S_S100000 (constant (F := F) S_ .f32 0xFF800000#32)) (W (Proc.devRef .tc main_call3_v0))))) := by
  after_results_simp
  rfl

/-- The shifted logits minus the logarithm of the row sums of their exponentials. -/
theorem pieceE_tail (W : Valuation τ sig (Elt F)) : after opsE3 W (Proc.devRef .tc main_v91)
    = subf (W (Proc.devRef .tc main_call3_v5))
        (Cert.Spec.overLanes (F := F) (Host.log (F := F) (Cert.Spec.asRows (F := F)
          (Host.reduceAdd (F := F) (Host.exp (F := F) (W (Proc.devRef .tc main_call3_v5))) (constant (F := F) S_ .f32 0x00000000#32) reducesTo_S100000x32_S100000_d1 h_S_)))) := by
  after_results_simp
  rfl

attribute [local irreducible] Host.reduce in
/-- Together: the bias and the row-wise log-softmax. -/
theorem pieceE_out (W : Valuation τ sig (Elt F)) : after opsE W (Proc.devRef .tc main_v91)
    = Cert.Spec.biasLogSoftmax (F := F) (W (Proc.devRef .tc main_v87)) (broadcastInDim S1x32 ![1] bcast_S32_S1x32_1 (W (Proc.devRef .tc main_arg5))) := by
  rw [opsE_split, after_append, after_append, pieceE_tail, pieceE_shift, pieceE_max, pieceE_logits]
  rfl

/-! ## The whole line -/

/-- The result buffer after the whole line: the network of the launch contents. -/
theorem result_eq (W : Valuation τ sig (Elt F)) : after ops W (Proc.devRef .tc main_v91)
    = Cert.Spec.network (F := F) (W (Proc.devRef .tc main_arg0)) (W (Proc.devRef .tc main_arg1)) (W (Proc.devRef .tc main_arg2))
        (broadcastInDim S1x128 ![1] bcast_S128_S1x128_1 (W (Proc.devRef .tc main_arg3))) (W (Proc.devRef .tc main_arg4))
        (broadcastInDim S1x32 ![1] bcast_S32_S1x32_1 (W (Proc.devRef .tc main_arg5))) := by
  rw [ops_split, after_append, after_append, after_append, after_append,
    pieceE_out, pieceD_agg, keepD_main_arg5, pieceC_dense, keepC_main_v1, keepC_main_v3, keepC_main_arg5,
    pieceB_agg, keepB_main_v1, keepB_main_v3, keepB_main_arg3, keepB_main_arg4, keepB_main_arg5,
    pieceA_dense, pieceA_src, pieceA_dst, keepA_main_arg3, keepA_main_arg4, keepA_main_arg5]
  rfl

set_option maxRecDepth 8192 in
set_option maxHeartbeats 40000000 in
/-- Every weakly fair execution of the reference terminates with the result buffer at the network's value on the launch
    contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = Cert.Spec.network (F := F) (m ((c.tc : Thread nD τ).loc main_arg0)) (m ((c.tc : Thread nD τ).loc main_arg1)) (m ((c.tc : Thread nD τ).loc main_arg2))
          (broadcastInDim S1x128 ![1] bcast_S128_S1x128_1 (m ((c.tc : Thread nD τ).loc main_arg3))) (m ((c.tc : Thread nD τ).loc main_arg4))
          (broadcastInDim S1x32 ![1] bcast_S32_S1x32_1 (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans ((result_eq (launchContents m c)).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Whole

end
-- ==== Proof.lean ====
/-
  A two-layer graph convolution network: the kernel program against its reference, at the exact reals.

  Both programs compute, for node features x, an edge list e and weights W1, b1, W2, b2,
      out = log_softmax( A( max( A(x · W1) + b1, 0 ) · W2 ) + b2 ),
  where A sums, into each node, deg(s)^(-1/2) · deg(d)^(-1/2) times the row of every edge's source s (a self loop
  added per node), and log_softmax is taken along each row.  The kernel program runs the two matrix products, the
  bias + rectifier and the bias + log-softmax as four launches over 20 blocks of 5000 rows, with the aggregation A as
  host operations between them; the reference is host operations throughout.

  With exact arithmetic the changes of float format around the kernel's products are the identity and a product into a
  zero accumulator is the plain sum over the inner index, so each launch's output array is the reference's operation
  applied to whole arrays (KRegion0 … KRegion3: what a grid point writes back is its block of that whole-array
  function, and the 20 blocks tile the rows).  The aggregation is the same host operations in both programs and is
  carried as one function that is never opened (Spec.lean).  The reference's row maximum takes one more max with −∞,
  which changes nothing, and a bias vector reshaped to a 1×n row is the vector broadcast along axis 1 into that row.
  So both results are `Spec.network` of the argument arrays (KChain.lean for the kernel, RefRun.lean for the
  reference), and they agree whenever the arguments do.  No finiteness of the inputs is used.

  The frames: the word-level kernel's and the idealized kernel's are the generated frame theorems; the reference's is
  its run with the result dropped.  The idealization rewrote nothing, so `preserves` has nothing to show.
-/
import proofs.«170771_j86105504350421_1_alg».proof.Defs
import proofs.«170771_j86105504350421_1_alg».proof.Proof.Gen.Kernel
import proofs.«170771_j86105504350421_1_alg».proof.Proof.Gen.Kernel.Skeleton
import proofs.«170771_j86105504350421_1_alg».proof.Proof.Gen.Kernel.Launch
import proofs.«170771_j86105504350421_1_alg».proof.Proof.Gen.Kernel.Points
import proofs.«170771_j86105504350421_1_alg».proof.Proof.Gen.Kernel.Frame
import proofs.«170771_j86105504350421_1_alg».proof.Proof.Gen.KernelIdeal
import proofs.«170771_j86105504350421_1_alg».proof.Proof.Gen.KernelIdeal.Skeleton
import proofs.«170771_j86105504350421_1_alg».proof.Proof.Gen.KernelIdeal.Launch
import proofs.«170771_j86105504350421_1_alg».proof.Proof.Gen.KernelIdeal.Points
import proofs.«170771_j86105504350421_1_alg».proof.Proof.Gen.KernelIdeal.Frame
import proofs.«170771_j86105504350421_1_alg».proof.Proof.Gen.ReferenceIdeal
import proofs.«170771_j86105504350421_1_alg».proof.Proof.Gen.Pre_finite_inputs
import proofs.«170771_j86105504350421_1_alg».proof.Proof.KRun
import proofs.«170771_j86105504350421_1_alg».proof.Proof.KChain
import proofs.«170771_j86105504350421_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference terminates with its arguments unchanged: its run, the result dropped. -/
theorem frame_reference : Cert.frame_ReferenceIdeal := fun m ρ _ =>
  (θ_run Cert.ReferenceIdeal.defs _ _).mono (fun _ h c => (h c).2) (Cert.ReferenceIdeal.Whole.run (F := Ideal) m ρ)

/-- The idealization rewrote no operation. -/
theorem preserves : Cert.preserves_Kernel_KernelIdeal := trivial

/-- From memories that agree on the six arguments both programs end with the result buffer at the network's value on
    those arguments. -/
theorem algebraic : Cert.algebraic_KernelIdeal_ReferenceIdeal := by
  intro m ρ m' ρ' _ hagree
  refine ⟨fun c => Cert.Spec.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (broadcastInDim Cert.ReferenceIdeal.S1x128 ![1] Cert.ReferenceIdeal.Gen.bcast_S128_S1x128_1 (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (broadcastInDim Cert.ReferenceIdeal.S1x32 ![1] Cert.ReferenceIdeal.Gen.bcast_S32_S1x32_1 (m ((c.tc : Thread Cert.KernelIdeal.nD Cert.KernelIdeal.τ).loc Cert.KernelIdeal.main_arg5))), ?_, ?_⟩
  · exact (θ_run Cert.KernelIdeal.defs _ _).mono
      (fun _ h c => ⟨(h c).1.trans (Cert.KernelIdeal.Chain.result_eq m ρ c), (h c).2⟩)
      (Cert.KernelIdeal.Whole.run_named m ρ)
  · refine (θ_run Cert.ReferenceIdeal.defs _ _).mono (fun _ h c => ⟨(h c).1.trans ?_, (h c).2⟩)
      (Cert.ReferenceIdeal.Whole.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
